-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x256 .f32) (main_arg1 : FVec F S1024x256 .f32) (main_arg2 : FVec F S1024 .f32) (main_arg3 : FVec F S128x1024 .f32) (main_arg4 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S_ : Shape := ⟨0, ![]⟩
abbrev S1024x1 : Shape := ⟨2, ![1024, 1]⟩
abbrev S65536x128 : Shape := ⟨2, ![65536, 128]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S256x256 : Shape := ⟨2, ![256, 256]⟩
abbrev S256 : Shape := ⟨1, ![256]⟩
abbrev S128x256 : Shape := ⟨2, ![128, 256]⟩
abbrev S1x256 : Shape := ⟨2, ![1, 256]⟩
abbrev S1x128 : Shape := ⟨2, ![1, 128]⟩

abbrev nBuf : Space → Nat
  | .hbm => 20
  | .vmem => 9
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S128x1024, .f32⟩
  | .hbm, ⟨4, _⟩ => ⟨S128, .f32⟩
  | .hbm, ⟨5, _⟩ => ⟨S1024x256, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024x1, .f32⟩
  | .hbm, ⟨12, _⟩ => ⟨S1024x256, .f32⟩
  | .hbm, ⟨13, _⟩ => ⟨S1024x256, .f32⟩
  | .hbm, ⟨14, _⟩ => ⟨S1024x256, .bf16⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S128x1024, .bf16⟩
  | .hbm, ⟨19, _⟩ => ⟨S65536x128, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1024, .f32⟩
  | .local _ .vmem, ⟨4, _⟩ => ⟨S1024, .f32⟩
  | .local _ .vmem, ⟨5, _⟩ => ⟨S128x1024, .bf16⟩
  | .local _ .vmem, ⟨6, _⟩ => ⟨S128, .f32⟩
  | .local _ .vmem, ⟨7, _⟩ => ⟨S2048x128, .f32⟩
  | .local _ .vmem, ⟨8, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x256_S1024_d1 : S1024x256.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S1024x256_S256x256_0_0 : ∀ a, (![0, 0] : Fin 2 → Nat) a + S256x256.size a ≤ S1024x256.size a
  h_S256x256 : 0 < S256x256.numel
  shapeCasts_S256x256_S256x256 : S256x256.ShapeCasts S256x256
  inb_S1024_S256_0 : ∀ a, (![0] : Fin 1 → Nat) a + S256.size a ≤ S1024.size a
  h_S256 : 0 < S256.numel
  shapeCasts_S256_S256 : S256.ShapeCasts S256
  inb_S128x1024_S128x256_0_0 : ∀ a, (![0, 0] : Fin 2 → Nat) a + S128x256.size a ≤ S128x1024.size a
  h_S128x256 : 0 < S128x256.numel
  shapeCasts_S128x256_S128x256 : S128x256.ShapeCasts S128x256
  shapeCasts_S256_S1x256 : S256.ShapeCasts S1x256
  broadcasts_S2048x1_S2048x256 : S2048x1.Broadcasts S2048x256
  broadcasts_S1x256_S2048x256 : S1x256.Broadcasts S2048x256
  inb_S1024x256_S256x256_256_0 : ∀ a, (![256, 0] : Fin 2 → Nat) a + S256x256.size a ≤ S1024x256.size a
  inb_S1024_S256_256 : ∀ a, (![256] : Fin 1 → Nat) a + S256.size a ≤ S1024.size a
  inb_S128x1024_S128x256_0_256 : ∀ a, (![0, 256] : Fin 2 → Nat) a + S128x256.size a ≤ S128x1024.size a
  inb_S1024x256_S256x256_512_0 : ∀ a, (![512, 0] : Fin 2 → Nat) a + S256x256.size a ≤ S1024x256.size a
  inb_S1024_S256_512 : ∀ a, (![512] : Fin 1 → Nat) a + S256.size a ≤ S1024.size a
  inb_S128x1024_S128x256_0_512 : ∀ a, (![0, 512] : Fin 2 → Nat) a + S128x256.size a ≤ S128x1024.size a
  inb_S1024x256_S256x256_768_0 : ∀ a, (![768, 0] : Fin 2 → Nat) a + S256x256.size a ≤ S1024x256.size a
  inb_S1024_S256_768 : ∀ a, (![768] : Fin 1 → Nat) a + S256.size a ≤ S1024.size a
  inb_S128x1024_S128x256_0_768 : ∀ a, (![0, 768] : Fin 2 → Nat) a + S128x256.size a ≤ S128x1024.size a
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x256_S256x256_S2048x256_1_1_0_0_n_n_wf : DotDims.WF S2048x256 S256x256 S2048x256 [1] [1] [0] [0] [] []
  dot_S2048x256_S128x256_S2048x128_1_1_0_0_n_n_wf : DotDims.WF S2048x256 S128x256 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .bf16 = 32 ∨ (Rect.block (s := S128x1024) S128x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S_ : Shape := ⟨0, ![]⟩
abbrev S65536 : Shape := ⟨1, ![65536]⟩
abbrev S65536x1024 : Shape := ⟨2, ![65536, 1024]⟩
abbrev S65536x1 : Shape := ⟨2, ![65536, 1]⟩
abbrev S1x1024 : Shape := ⟨2, ![1, 1024]⟩
abbrev S1024x128 : Shape := ⟨2, ![1024, 128]⟩
abbrev S65536x128 : Shape := ⟨2, ![65536, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S128x1024, .f32⟩
  | .hbm, ⟨4, _⟩ => ⟨S128, .f32⟩
  | .hbm, ⟨5, _⟩ => ⟨S65536x256, .f32⟩
  | .hbm, ⟨6, _⟩ => ⟨S_, .f32⟩
  | .hbm, ⟨7, _⟩ => ⟨S65536, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S65536x1024, .f32⟩
  | .hbm, ⟨12, _⟩ => ⟨S65536x1, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1024x128, .f32⟩
  | .hbm, ⟨27, _⟩ => ⟨S65536x128, .f32⟩
  | .hbm, ⟨28, _⟩ => ⟨S1x128, .f32⟩
  | .hbm, ⟨29, _⟩ => ⟨S65536x128, .f32⟩
  | .hbm, ⟨30, _⟩ => ⟨S65536x128, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  reducesTo_S1024x256_S1024_d1 : S1024x256.ReducesTo [1] S1024
  bcast_S65536_S65536x1_0 : S65536.BroadcastsInDim S65536x1 (![0] : Fin 1 → Fin S65536x1.rank)
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x256_S1024x256_S65536x1024_1_1_0_0_n_n_wf : DotDims.WF S65536x256 S1024x256 S65536x1024 [1] [1] [0] [0] [] []
  dot_S65536x1024_S1024x128_S65536x128_1_0_0_1_n_n_wf : DotDims.WF S65536x1024 S1024x128 S65536x128 [1] [0] [0] [1] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.Body.lean ====
/-
  What the kernel's body leaves in the output block, read at one entry.

  The body works on a block of 2048 data rows.  It forms each row's squared norm once, as a column, and then treats the
  1024 centers in four chunks of 256.  For one chunk it multiplies the rows with the chunk's folded centers (a product
  that contracts the 256 coordinates of both operands), adds the squared norm times the chunk's negated widths and the
  chunk's offsets, both laid out as a row broadcast down the block, takes the exponential, and multiplies the 256
  features so obtained with the chunk's slice of the weights (again contracting the second axis of both operands).  The
  four chunk products are added one after the other onto a zero block, and the bias, a row broadcast down the block, is
  added last.  At entry `(p, q)` every layout operation reads one element and every product is a sum over the
  contracted coordinate, so the entry is the sum over the four chunks of the sum over the chunk's 256 centers of
  `exp(⟨x_p, c2_k⟩ + ‖x_p‖² · ns_k + w0_k) · w (q, k)`,  plus `b_q`.
-/
import proofs.«148921_j45226005627083_2_alg».proof.Proof.Gen.KernelIdeal.Frame
import proofs.«148921_j45226005627083_2_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.ColumnIdx

/-! ## The two products, read at an entry -/

theorem rows_by_rows_lhs0 (i : S2048x256.Idx) (q : dot_S2048x256_S256x256_S2048x256_1_1_0_0_n_n.contr.Idx) : (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
theorem rows_by_rows_lhs1 (i : S2048x256.Idx) (q : dot_S2048x256_S256x256_S2048x256_1_1_0_0_n_n.contr.Idx) : (dot_S2048x256_S256x256_S2048x256_1_1_0_0_n_n.lhsIdx i q 1).val = (q ⟨0, by decide⟩).val :=
  dot_S2048x256_S256x256_S2048x256_1_1_0_0_n_n.lhsIdx_val_of_single rfl i q
theorem rows_by_rows_rhs0 (i : S2048x256.Idx) (q : dot_S2048x256_S256x256_S2048x256_1_1_0_0_n_n.contr.Idx) : (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
theorem rows_by_rows_rhs1 (i : S2048x256.Idx) (q : dot_S2048x256_S256x256_S2048x256_1_1_0_0_n_n.contr.Idx) : (dot_S2048x256_S256x256_S2048x256_1_1_0_0_n_n.rhsIdx i q 1).val = (q ⟨0, by decide⟩).val :=
  dot_S2048x256_S256x256_S2048x256_1_1_0_0_n_n.rhsIdx_val_of_single rfl i q

/-- The product of a `[2048, 256]` block with a `[256, 256]` block along the second axis of both, into the zero
    block: entry `(p, k)` is the inner product of row `p` of the first with row `k` of the second. -/
theorem rows_by_rows_apply (A : FVec Ideal S2048x256 .bf16) (B : FVec Ideal S256x256 .bf16) (p : Fin 2048) (k : Fin 256) :
    matmul dot_S2048x256_S256x256_S2048x256_1_1_0_0_n_n none A B (constant S2048x256 .f32 0x00000000#32) (ix2 p k)
      = ∑ d : Fin 256, A (ix2 p d) * B (ix2 k d) := by
  show FloatOps.matmul dot_S2048x256_S256x256_S2048x256_1_1_0_0_n_n none A B (constant S2048x256 .f32 0x00000000#32) (ix2 p k) = _
  rw [Ideal.matmul_constant_zero_apply, ← Equiv.sum_comp (ValueIdx.contrEquiv1 dot_S2048x256_S256x256_S2048x256_1_1_0_0_n_n 256 rfl rfl).symm]
  refine Finset.sum_congr rfl fun d _ => ?_
  have hk := ValueIdx.contrEquiv1_symm_val dot_S2048x256_S256x256_S2048x256_1_1_0_0_n_n 256 rfl rfl d
  have el : dot_S2048x256_S256x256_S2048x256_1_1_0_0_n_n.lhsIdx (ix2 p k) ((ValueIdx.contrEquiv1 dot_S2048x256_S256x256_S2048x256_1_1_0_0_n_n 256 rfl rfl).symm d) = ix2 p d := funext fun a => Fin.ext (by
    match a with
    | ⟨0, _⟩ => exact rows_by_rows_lhs0 _ _
    | ⟨1, _⟩ => exact (rows_by_rows_lhs1 _ _).trans hk)
  have er : dot_S2048x256_S256x256_S2048x256_1_1_0_0_n_n.rhsIdx (ix2 p k) ((ValueIdx.contrEquiv1 dot_S2048x256_S256x256_S2048x256_1_1_0_0_n_n 256 rfl rfl).symm d) = ix2 k d := funext fun a => Fin.ext (by
    match a with
    | ⟨0, _⟩ => exact rows_by_rows_rhs0 _ _
    | ⟨1, _⟩ => exact (rows_by_rows_rhs1 _ _).trans hk)
  rw [el, er]

theorem rows_by_weights_lhs0 (i : S2048x128.Idx) (q : dot_S2048x256_S128x256_S2048x128_1_1_0_0_n_n.contr.Idx) : (dot_S2048x256_S128x256_S2048x128_1_1_0_0_n_n.lhsIdx i q 0).val = (i 0).val := by
  unfold DotDims.lhsIdx
  rw [dif_neg (show ¬(0 : Fin S2048x256.rank) ∈ dot_S2048x256_S128x256_S2048x128_1_1_0_0_n_n.lhsBatch by decide), dif_pos (show (0 : Fin S2048x256.rank) ∈ dot_S2048x256_S128x256_S2048x128_1_1_0_0_n_n.lhsNonContracting by decide)]
  rfl
theorem rows_by_weights_lhs1 (i : S2048x128.Idx) (q : dot_S2048x256_S128x256_S2048x128_1_1_0_0_n_n.contr.Idx) : (dot_S2048x256_S128x256_S2048x128_1_1_0_0_n_n.lhsIdx i q 1).val = (q ⟨0, by decide⟩).val :=
  dot_S2048x256_S128x256_S2048x128_1_1_0_0_n_n.lhsIdx_val_of_single rfl i q
theorem rows_by_weights_rhs0 (i : S2048x128.Idx) (q : dot_S2048x256_S128x256_S2048x128_1_1_0_0_n_n.contr.Idx) : (dot_S2048x256_S128x256_S2048x128_1_1_0_0_n_n.rhsIdx i q 0).val = (i 1).val := by
  unfold DotDims.rhsIdx
  rw [dif_neg (show ¬(0 : Fin S128x256.rank) ∈ dot_S2048x256_S128x256_S2048x128_1_1_0_0_n_n.rhsBatch by decide), dif_pos (show (0 : Fin S128x256.rank) ∈ dot_S2048x256_S128x256_S2048x128_1_1_0_0_n_n.rhsNonContracting by decide)]
  rfl
theorem rows_by_weights_rhs1 (i : S2048x128.Idx) (q : dot_S2048x256_S128x256_S2048x128_1_1_0_0_n_n.contr.Idx) : (dot_S2048x256_S128x256_S2048x128_1_1_0_0_n_n.rhsIdx i q 1).val = (q ⟨0, by decide⟩).val :=
  dot_S2048x256_S128x256_S2048x128_1_1_0_0_n_n.rhsIdx_val_of_single rfl i q

/-- The product of a `[2048, 256]` block with a `[128, 256]` block along the second axis of both, into the zero
    block: entry `(p, q)` is the inner product of row `p` of the first with row `q` of the second. -/
theorem rows_by_weights_apply (A : FVec Ideal S2048x256 .bf16) (B : FVec Ideal S128x256 .bf16) (p : Fin 2048) (k : Fin 128) :
    matmul dot_S2048x256_S128x256_S2048x128_1_1_0_0_n_n none A B (constant S2048x128 .f32 0x00000000#32) (ix2 p k)
      = ∑ d : Fin 256, A (ix2 p d) * B (ix2 k d) := by
  show FloatOps.matmul dot_S2048x256_S128x256_S2048x128_1_1_0_0_n_n none A B (constant S2048x128 .f32 0x00000000#32) (ix2 p k) = _
  rw [Ideal.matmul_constant_zero_apply, ← Equiv.sum_comp (ValueIdx.contrEquiv1 dot_S2048x256_S128x256_S2048x128_1_1_0_0_n_n 256 rfl rfl).symm]
  refine Finset.sum_congr rfl fun d _ => ?_
  have hk := ValueIdx.contrEquiv1_symm_val dot_S2048x256_S128x256_S2048x128_1_1_0_0_n_n 256 rfl rfl d
  have el : dot_S2048x256_S128x256_S2048x128_1_1_0_0_n_n.lhsIdx (ix2 p k) ((ValueIdx.contrEquiv1 dot_S2048x256_S128x256_S2048x128_1_1_0_0_n_n 256 rfl rfl).symm d) = ix2 p d := funext fun a => Fin.ext (by
    match a with
    | ⟨0, _⟩ => exact rows_by_weights_lhs0 _ _
    | ⟨1, _⟩ => exact (rows_by_weights_lhs1 _ _).trans hk)
  have er : dot_S2048x256_S128x256_S2048x128_1_1_0_0_n_n.rhsIdx (ix2 p k) ((ValueIdx.contrEquiv1 dot_S2048x256_S128x256_S2048x128_1_1_0_0_n_n 256 rfl rfl).symm d) = ix2 k d := funext fun a => Fin.ext (by
    match a with
    | ⟨0, _⟩ => exact rows_by_weights_rhs0 _ _
    | ⟨1, _⟩ => exact (rows_by_weights_rhs1 _ _).trans hk)
  rw [el, er]

/-! ## One chunk -/

/-- A vector of 256 entries laid out as a row and broadcast down the 2048 rows of a block. -/
def rowDown (v : FVec Ideal S256 .f32) : FVec Ideal S2048x256 .f32 :=
  broadcastTo S2048x256 (shapeCast S1x256 (shapeCast S256 v shapeCasts_S256_S256) shapeCasts_S256_S1x256) broadcasts_S1x256_S2048x256

theorem rowDown_apply (v : FVec Ideal S256 .f32) (p : Fin 2048) (k : Fin 256) : rowDown v (ix2 p k) = v (ix1 k) := by
  unfold rowDown
  rw [shapeCast_self]
  exact (broadcastTo_1b_ab_apply _ broadcasts_S1x256_S2048x256 p k).trans
    (shapeCast_a_1a_apply v shapeCasts_S256_S1x256 (0 : Fin 1) k)

/-- The 256 features of one chunk for the block's rows: the exponential of the rows' products with the chunk's folded
    centers, plus the squared-norm column times the chunk's negated widths, plus the chunk's offsets. -/
def chunkFeatures (xb : FVec Ideal S2048x256 .bf16) (sq : FVec Ideal S2048x1 .f32) (c2 : FVec Ideal S256x256 .bf16)
    (ns w0 : FVec Ideal S256 .f32) : FVec Ideal S2048x256 .f32 :=
  exp (addf (addf (matmul dot_S2048x256_S256x256_S2048x256_1_1_0_0_n_n none xb (shapeCast S256x256 c2 shapeCasts_S256x256_S256x256)
      (constant S2048x256 .f32 0x00000000#32)) (mulf (broadcastTo S2048x256 sq broadcasts_S2048x1_S2048x256) (rowDown ns))) (rowDown w0))

theorem chunkFeatures_apply (xb : FVec Ideal S2048x256 .bf16) (sq : FVec Ideal S2048x1 .f32) (c2 : FVec Ideal S256x256 .bf16)
    (ns w0 : FVec Ideal S256 .f32) (p : Fin 2048) (k : Fin 256) :
    chunkFeatures xb sq c2 ns w0 (ix2 p k)
      = Ideal.exp ((∑ d : Fin 256, xb (ix2 p d) * c2 (ix2 k d) + sq (ix2 p (0 : Fin 1)) * ns (ix1 k)) + w0 (ix1 k)) := by
  unfold chunkFeatures
  show Ideal.exp ((matmul dot_S2048x256_S256x256_S2048x256_1_1_0_0_n_n none xb (shapeCast S256x256 c2 shapeCasts_S256x256_S256x256)
      (constant S2048x256 .f32 0x00000000#32) (ix2 p k)
      + broadcastTo S2048x256 sq broadcasts_S2048x1_S2048x256 (ix2 p k) * rowDown ns (ix2 p k)) + rowDown w0 (ix2 p k)) = _
  rw [rows_by_rows_apply, shapeCast_self, rowDown_apply, rowDown_apply,
    broadcastTo_a1_ab_apply sq broadcasts_S2048x1_S2048x256 p k]

/-- One chunk's contribution to the output block: its features times the chunk's slice of the weights. -/
def chunkOut (feat : FVec Ideal S2048x256 .f32) (w : FVec Ideal S128x256 .bf16) : FVec Ideal S2048x128 .f32 :=
  matmul dot_S2048x256_S128x256_S2048x128_1_1_0_0_n_n none (truncf .bf16 feat bitsLt_bf16_f32)
    (shapeCast S128x256 w shapeCasts_S128x256_S128x256) (constant S2048x128 .f32 0x00000000#32)

theorem chunkOut_apply (feat : FVec Ideal S2048x256 .f32) (w : FVec Ideal S128x256 .bf16) (p : Fin 2048) (q : Fin 128) :
    chunkOut feat w (ix2 p q) = ∑ k : Fin 256, feat (ix2 p k) * w (ix2 q k) := by
  unfold chunkOut
  rw [rows_by_weights_apply, shapeCast_self]
  rfl

/-! ## The squared norms, as a column -/

theorem sqColumn_apply (x0 : FVec Ideal S2048x256 .f32) (p : Fin 2048) (u : Fin 1) :
    k0_pay3 x0 (ix2 p u) = ∑ d : Fin 256, x0 (ix2 p d) * x0 (ix2 p d) := by
  unfold k0_pay3
  exact (shapeCast_a_a1_apply _ shapeCasts_S2048_S2048x1 p u).trans
    (rowSum_apply (mulf x0 x0) reduces_S2048x256_S2048 (.inl rfl) rfl p)

/-! ## The whole body -/

/-- The stored block in terms of the four chunks: the body's values, which the printed program cuts into parts, put
    back together. -/
theorem stored_eq (x0 : FVec Ideal S2048x256 .f32) (a1 a4 a7 a10 : FVec Ideal S256x256 .bf16) (b2 b5 b8 b11 : FVec Ideal S256 .f32)
    (c2 c5 c8 c11 : FVec Ideal S256 .f32) (w3 w6 w9 w12 : FVec Ideal S128x256 .bf16) (bias : FVec Ideal S128 .f32) :
    k0_pay1 (F := Ideal) (k0_pay9 (k0_pay2 x0) (k0_pay3 x0) (k0_pay4 x0 a1 b2 c2 w3) (k0_pay5 c5) (k0_pay6 w6) (k0_pay7 x0 a4) (k0_pay8 x0 b5) a7 b8 c8 w9)
        (k0_pay10 w12) (k0_pay11 (k0_pay2 x0) (k0_pay3 x0) a10 b11) (k0_pay12 c11) bias
      = addf (addf (addf (addf (addf (broadcast S2048x128 (Scalar.ofBits .f32 0x00000000#32))
            (chunkOut (chunkFeatures (k0_pay2 x0) (k0_pay3 x0) a1 b2 c2) w3))
            (chunkOut (chunkFeatures (k0_pay2 x0) (k0_pay3 x0) a4 b5 c5) w6))
            (chunkOut (chunkFeatures (k0_pay2 x0) (k0_pay3 x0) a7 b8 c8) w9))
            (chunkOut (chunkFeatures (k0_pay2 x0) (k0_pay3 x0) a10 b11 c11) w12))
          (broadcastTo S2048x128 (shapeCast S1x128 bias shapeCasts_S128_S1x128) broadcasts_S1x128_S2048x128) := rfl

/-- One chunk's sum at `(p, q)`, from the data block and the chunk's four loaded pieces. -/
def chunkSum (x0 : FVec Ideal S2048x256 .f32) (c2 : FVec Ideal S256x256 .bf16) (ns w0 : FVec Ideal S256 .f32)
    (w : FVec Ideal S128x256 .bf16) (p : Fin 2048) (q : Fin 128) : EReal :=
  ∑ k : Fin 256, Ideal.exp ((∑ d : Fin 256, x0 (ix2 p d) * c2 (ix2 k d)
      + (∑ d : Fin 256, x0 (ix2 p d) * x0 (ix2 p d)) * ns (ix1 k)) + w0 (ix1 k)) * w (ix2 q k)

theorem chunk_apply (x0 : FVec Ideal S2048x256 .f32) (c2 : FVec Ideal S256x256 .bf16) (ns w0 : FVec Ideal S256 .f32)
    (w : FVec Ideal S128x256 .bf16) (p : Fin 2048) (q : Fin 128) :
    chunkOut (chunkFeatures (k0_pay2 x0) (k0_pay3 x0) c2 ns w0) w (ix2 p q) = chunkSum x0 c2 ns w0 w p q := by
  rw [chunkOut_apply]
  unfold chunkSum
  refine Finset.sum_congr rfl fun k _ => ?_
  rw [chunkFeatures_apply, sqColumn_apply]
  rfl

/-- The stored block at `(p, q)`: the four chunk sums added in order onto zero, plus the bias entry. -/
theorem stored_apply (x0 : FVec Ideal S2048x256 .f32) (a1 a4 a7 a10 : FVec Ideal S256x256 .bf16) (b2 b5 b8 b11 : FVec Ideal S256 .f32)
    (c2 c5 c8 c11 : FVec Ideal S256 .f32) (w3 w6 w9 w12 : FVec Ideal S128x256 .bf16) (bias : FVec Ideal S128 .f32)
    (p : Fin 2048) (q : Fin 128) :
    k0_pay1 (F := Ideal) (k0_pay9 (k0_pay2 x0) (k0_pay3 x0) (k0_pay4 x0 a1 b2 c2 w3) (k0_pay5 c5) (k0_pay6 w6) (k0_pay7 x0 a4) (k0_pay8 x0 b5) a7 b8 c8 w9)
        (k0_pay10 w12) (k0_pay11 (k0_pay2 x0) (k0_pay3 x0) a10 b11) (k0_pay12 c11) bias (ix2 p q)
      = (((chunkSum x0 a1 b2 c2 w3 p q + chunkSum x0 a4 b5 c5 w6 p q) + chunkSum x0 a7 b8 c8 w9 p q)
          + chunkSum x0 a10 b11 c11 w12 p q) + bias (ix1 q) := by
  rw [stored_eq]
  show ((((Ideal.ofBits .f32 0x00000000#32 + chunkOut _ w3 (ix2 p q)) + chunkOut _ w6 (ix2 p q)) + chunkOut _ w9 (ix2 p q))
      + chunkOut _ w12 (ix2 p q)) + broadcastTo S2048x128 (shapeCast S1x128 bias shapeCasts_S128_S1x128) broadcasts_S1x128_S2048x128 (ix2 p q) = _
  rw [chunk_apply, chunk_apply, chunk_apply, chunk_apply, Ideal.ofBits_zero_f32, zero_add]
  exact congrArg (_ + ·) ((broadcastTo_1b_ab_apply _ broadcasts_S1x128_S2048x128 p q).trans
    (shapeCast_a_1a_apply bias shapeCasts_S128_S1x128 (0 : Fin 1) q))

end Cert.KernelIdeal.Body

end
-- ==== Proof.Spec.lean ====
/-
  What both programs compute, as one function of the five argument arrays.

  Row `n` of the data `x` and center `k` give the exponent  `-σ_k · (‖x_n‖² + ‖c_k‖² - 2 · ⟨x_n, c_k⟩)`,  that is
  `-σ_k · ‖x_n - c_k‖²`  with the square expanded; the radial feature is its exponential, and output `(n, o)` is the
  features of row `n` combined with row `o` of the weights `W`, plus the bias `b_o`.  Everything is over the extended
  reals; the scale `2` is kept as the float word both programs print, so it is never evaluated.
-/
import Idealize.ShloMosaic.PureOps.Ideal
import Idealize.ShloMosaic.Lib.ValueIdx

noncomputable section

namespace Rbf

open Idealize.ShloMosaic Idealize.ShloMosaic.ValueIdx

/-- The scale in front of the inner product: the float word of `2.0`. -/
def two : EReal := Ideal.ofBits .f32 0x40000000#32

/-- The squared norm of row `r` of an array with 256 columns. -/
def sqNorm {n : ℕ} (a : (⟨2, ![n, 256]⟩ : Shape).Idx → EReal) (r : Fin n) : EReal :=
  ∑ d : Fin 256, a (ix2 r d) * a (ix2 r d)

/-- The inner product of row `r` of one array with row `s` of another, both with 256 columns. -/
def inner {n n' : ℕ} (a : (⟨2, ![n, 256]⟩ : Shape).Idx → EReal) (a' : (⟨2, ![n', 256]⟩ : Shape).Idx → EReal)
    (r : Fin n) (s : Fin n') : EReal :=
  ∑ d : Fin 256, a (ix2 r d) * a' (ix2 s d)

/-- The exponent of the radial feature of data row `n` at center `k`, as the reference spells it. -/
def exponent (x : (⟨2, ![65536, 256]⟩ : Shape).Idx → EReal) (c : (⟨2, ![1024, 256]⟩ : Shape).Idx → EReal)
    (σ : (⟨1, ![1024]⟩ : Shape).Idx → EReal) (n : Fin 65536) (k : Fin 1024) : EReal :=
  -(σ (ix1 k)) * ((sqNorm x n + sqNorm c k) - two * inner x c n k)

/-- The network's output: the radial features of each row combined with the weights, plus the bias. -/
def out (x : (⟨2, ![65536, 256]⟩ : Shape).Idx → EReal) (c : (⟨2, ![1024, 256]⟩ : Shape).Idx → EReal)
    (σ : (⟨1, ![1024]⟩ : Shape).Idx → EReal) (W : (⟨2, ![128, 1024]⟩ : Shape).Idx → EReal)
    (b : (⟨1, ![128]⟩ : Shape).Idx → EReal) : (⟨2, ![65536, 128]⟩ : Shape).Idx → EReal := fun i =>
  (∑ k : Fin 1024, Ideal.exp (exponent x c σ (i 0) k) * W (ix2 (i 1) k)) + b (ix1 (i 1))

end Rbf

end
-- ==== Proof.Prepared.lean ====
/-
  The operands the kernel's program prepares before the region, read at an index.

  Before launching the kernel the program folds the widths into the centers:  `c2 (k, d) = (2 · σ_k) · c (k, d)`
  (the scalar 2 broadcast to a vector, times σ, laid out as a column and broadcast along the 256 coordinates, times the
  centers; the change of float format that follows is the identity on the extended reals).  It negates the widths,
  `ns_k = -σ_k`, forms the offsets  `w0_k = (-σ_k) · ‖c_k‖²`  (the squared norm a sum over the 256 coordinates from
  the float zero), and changes the format of the weights, again the identity.
-/
import proofs.«148921_j45226005627083_2_alg».proof.Proof.Gen.KernelIdeal.Frame
import proofs.«148921_j45226005627083_2_alg».proof.Proof.Spec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

noncomputable section

namespace Cert.KernelIdeal.Prepared

open Cert.KernelIdeal Cert.KernelIdeal.Gen Idealize.ShloMosaic Idealize.ShloMosaic.TcCoe Idealize.SL.Sem
  Idealize.ShloMosaic.StableHlo Idealize.ShloMosaic.ValueIdx

/-- The centers with twice the width folded in. -/
def foldedCenters (σ : FVec Ideal S1024 .f32) (cen : FVec Ideal S1024x256 .f32) : FVec Ideal S1024x256 .bf16 :=
  truncf .bf16 (mulf (broadcastInDim S1024x256 ![0, 1] bcast_S1024x1_S1024x256_0_1
    (broadcastInDim S1024x1 ![0] bcast_S1024_S1024x1_0
      (mulf (broadcastInDim S1024 ![] bcast_S_S1024 (constant (F := Ideal) S_ .f32 0x40000000#32)) σ))) cen) bitsLt_bf16_f32

theorem foldedCenters_apply (σ : FVec Ideal S1024 .f32) (cen : FVec Ideal S1024x256 .f32) (k : Fin 1024) (d : Fin 256) :
    foldedCenters σ cen (ix2 k d) = (Rbf.two * σ (ix1 k)) * cen (ix2 k d) := by
  unfold foldedCenters
  show (broadcastInDim S1024x256 ![0, 1] bcast_S1024x1_S1024x256_0_1 (broadcastInDim S1024x1 ![0] bcast_S1024_S1024x1_0
      (mulf (broadcastInDim S1024 ![] bcast_S_S1024 (constant (F := Ideal) S_ .f32 0x40000000#32)) σ)) (ix2 k d)) * cen (ix2 k d) = _
  refine congrArg (· * cen (ix2 k d)) ?_
  refine (broadcastInDim_apply _ bcast_S1024x1_S1024x256_0_1 _ (ix2 k d) (ix2 k (0 : Fin 1)) (fun a => match a with
    | ⟨0, _⟩ => by show k.val = if (1024 : Nat) = 1 then 0 else k.val; rw [if_neg (by decide)]
    | ⟨1, _⟩ => by show 0 = if (1 : Nat) = 1 then 0 else d.val; rw [if_pos rfl])).trans ?_
  refine (broadcastInDim_apply _ bcast_S1024_S1024x1_0 _ (ix2 k (0 : Fin 1)) (ix1 k) (fun a => match a with
    | ⟨0, _⟩ => by show k.val = if (1024 : Nat) = 1 then 0 else k.val; rw [if_neg (by decide)])).trans ?_
  show (broadcastInDim S1024 ![] bcast_S_S1024 (constant (F := Ideal) S_ .f32 0x40000000#32)) (ix1 k) * σ (ix1 k) = _
  refine congrArg (· * σ (ix1 k)) ?_
  exact (broadcastInDim_apply _ bcast_S_S1024 _ (ix1 k) ix0 (fun a => a.elim0)).trans rfl

/-- The negated widths. -/
def negWidths (σ : FVec Ideal S1024 .f32) : FVec Ideal S1024 .f32 := Host.negf σ

theorem negWidths_apply (σ : FVec Ideal S1024 .f32) (k : Fin 1024) : negWidths σ (ix1 k) = -(σ (ix1 k)) := rfl

/-- The offsets: the negated width times the center's squared norm. -/
def offsets (σ : FVec Ideal S1024 .f32) (cen : FVec Ideal S1024x256 .f32) : FVec Ideal S1024 .f32 :=
  mulf (Host.negf σ) (Host.reduceAdd (mulf cen cen) (constant (F := Ideal) S_ .f32 0x00000000#32) reducesTo_S1024x256_S1024_d1 h_S_)

theorem offsets_apply (σ : FVec Ideal S1024 .f32) (cen : FVec Ideal S1024x256 .f32) (k : Fin 1024) :
    offsets σ cen (ix1 k) = -(σ (ix1 k)) * Rbf.sqNorm cen k := by
  unfold offsets
  show -(σ (ix1 k)) * Host.reduceAdd (mulf cen cen) (constant (F := Ideal) S_ .f32 0x00000000#32) reducesTo_S1024x256_S1024_d1 h_S_ (ix1 k) = _
  refine congrArg (-(σ (ix1 k)) * ·) ?_
  generalize hy : mulf cen cen = y
  simp only [Host.reduceAdd, Ideal.hostReduceAdd_def]
  rw [Ideal.hostReduceAdd_single reducesTo_S1024x256_S1024_d1 (by decide)]
  show Ideal.ofBits .f32 0x00000000#32 + _ = _
  rw [Ideal.ofBits_zero_f32, zero_add]
  unfold Rbf.sqNorm
  refine Finset.sum_congr rfl fun d _ => ?_
  subst hy
  exact congrArg (mulf cen cen) (funext fun a => Fin.ext (by match a with | ⟨0, _⟩ => rfl | ⟨1, _⟩ => rfl))

/-- The weights in the kernel's operand format: unchanged on the extended reals. -/
def weights (W : FVec Ideal S128x1024 .f32) : FVec Ideal S128x1024 .bf16 := truncf .bf16 W bitsLt_bf16_f32

theorem weights_apply (W : FVec Ideal S128x1024 .f32) (i : S128x1024.Idx) : weights W i = W i := rfl

/-! ## The region finds these in the operands' buffers -/

variable (m : (ℓ : Loc nD τ sig) → Buf (Elt Ideal) ℓ)

theorem V_main_v7 (c : Dev nD) : (V m c main_v7 : FVec Ideal S1024x256 .bf16)
    = foldedCenters (m ((c : Thread nD τ).loc main_arg2)) (m ((c : Thread nD τ).loc main_arg1)) := by
  dsimp only [Gen.V, Gen.hostOps0]; after_results; rfl

theorem V_main_v8 (c : Dev nD) : (V m c main_v8 : FVec Ideal S1024 .f32) = negWidths (m ((c : Thread nD τ).loc main_arg2)) := by
  dsimp only [Gen.V, Gen.hostOps0]; after_results; rfl

theorem V_main_v10 (c : Dev nD) : (V m c main_v10 : FVec Ideal S1024 .f32)
    = offsets (m ((c : Thread nD τ).loc main_arg2)) (m ((c : Thread nD τ).loc main_arg1)) := by
  dsimp only [Gen.V, Gen.hostOps0]; after_results; rfl

theorem V_main_v11 (c : Dev nD) : (V m c main_v11 : FVec Ideal S128x1024 .bf16) = weights (m ((c : Thread nD τ).loc main_arg3)) := by
  dsimp only [Gen.V, Gen.hostOps0]; after_results; rfl

end Cert.KernelIdeal.Prepared

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.Exponent.lean ====
/-
  The algebra that joins the two programs.

  For one row `x` of the data, one center `c`, a width `σ` and a scale `t` (the programs use `t = 2`), the reference
  forms  `-σ · (‖x‖² + ‖c‖² - t · ⟨x, c⟩)`  while the kernel, with the width folded into the center beforehand, forms
  `⟨x, (t·σ)·c⟩ + ‖x‖²·(-σ) + (-σ)·‖c‖²`.  Over the reals these agree: the factor `t·σ` moves out of the inner product
  and the rest is distributivity.  Over the extended reals distributivity fails at the infinities, so the identity is
  stated for entries that are real numbers, which is what the precondition gives.

  A contraction over 1024 centers taken as four consecutive chunks of 256 is the whole contraction: only associativity
  and commutativity of addition are used, so nothing needs to be finite there.
-/
import Idealize.ShloMosaic.PureOps.Ideal
import proofs.«148921_j45226005627083_2_alg».proof.Proof.LibBlockedSum

noncomputable section

namespace RbfAlgebra

open Finset

/-- The coercion of a finite sum of reals is the sum of the coercions. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The two spellings of the exponent agree over the reals. -/
theorem exponent_real {D : ℕ} (t σ : ℝ) (x c : Fin D → ℝ) :
    (∑ d, x d * ((t * σ) * c d) + (∑ d, x d * x d) * (-σ)) + (-σ) * (∑ d, c d * c d)
      = (-σ) * (((∑ d, x d * x d) + ∑ d, c d * c d) - t * ∑ d, x d * c d) := by
  have h : ∑ d, x d * ((t * σ) * c d) = (t * σ) * ∑ d, x d * c d := by
    rw [mul_sum]; exact sum_congr rfl fun d _ => by ring
  rw [h]; ring

/-- The same over the extended reals, when every entry is a real number. -/
theorem exponent_ereal {D : ℕ} (t σ : EReal) (x c : Fin D → EReal) (ht : ∃ r : ℝ, t = r) (hσ : ∃ r : ℝ, σ = r)
    (hx : ∀ d, ∃ r : ℝ, x d = r) (hc : ∀ d, ∃ r : ℝ, c d = r) :
    (∑ d, x d * ((t * σ) * c d) + (∑ d, x d * x d) * (-σ)) + (-σ) * (∑ d, c d * c d)
      = (-σ) * (((∑ d, x d * x d) + ∑ d, c d * c d) - t * ∑ d, x d * c d) := by
  obtain ⟨t, rfl⟩ := ht
  obtain ⟨σ, rfl⟩ := hσ
  obtain ⟨xr, rfl⟩ : ∃ xr : Fin D → ℝ, x = fun d => (xr d : EReal) :=
    ⟨fun d => (hx d).choose, funext fun d => (hx d).choose_spec⟩
  obtain ⟨cr, rfl⟩ : ∃ cr : Fin D → ℝ, c = fun d => (cr d : EReal) :=
    ⟨fun d => (hc d).choose, funext fun d => (hc d).choose_spec⟩
  dsimp only
  exact_mod_cast exponent_real t σ xr cr

variable {M : Type*} [AddCommMonoid M]

/-- Chunk `b` of a family over 1024 indices, as a sum over the chunk's 256 positions. -/
theorem chunk_sum (g : Fin 1024 → M) (b : ℕ) (hb : b < 4) :
    ∑ j ∈ range 256, (fun k => if h : k < 1024 then g ⟨k, h⟩ else 0) (b * 256 + j)
      = ∑ j : Fin 256, g ⟨b * 256 + j.val, by have := j.isLt; omega⟩ := by
  rw [← Fin.sum_univ_eq_sum_range (fun j => (fun k => if h : k < 1024 then g ⟨k, h⟩ else 0) (b * 256 + j)) 256]
  refine sum_congr rfl fun j _ => ?_
  have hj := j.isLt
  exact dif_pos (by omega)

/-- A sum over 1024 indices is the sum of its four consecutive chunks of 256, added in order. -/
theorem sum_four_chunks (g : Fin 1024 → M) :
    ∑ k : Fin 1024, g k
      = (((∑ j : Fin 256, g ⟨0 * 256 + j.val, by have := j.isLt; omega⟩)
          + ∑ j : Fin 256, g ⟨1 * 256 + j.val, by have := j.isLt; omega⟩)
          + ∑ j : Fin 256, g ⟨2 * 256 + j.val, by have := j.isLt; omega⟩)
          + ∑ j : Fin 256, g ⟨3 * 256 + j.val, by have := j.isLt; omega⟩ := by
  have e : ∑ k : Fin 1024, g k = ∑ k ∈ range (4 * 256), (fun k => if h : k < 1024 then g ⟨k, h⟩ else 0) k := by
    show _ = ∑ k ∈ range 1024, _
    rw [← Fin.sum_univ_eq_sum_range (fun k => if h : k < 1024 then g ⟨k, h⟩ else 0) 1024]
    exact sum_congr rfl fun k _ => by rw [dif_pos k.isLt]
  rw [e, BlockedSum.sum_range_mul, sum_range_succ, sum_range_succ, sum_range_succ, sum_range_one,
    chunk_sum g 0 (by omega), chunk_sum g 1 (by omega), chunk_sum g 2 (by omega), chunk_sum g 3 (by omega)]

end RbfAlgebra

end
-- ==== Proof.Words.lean ====
/-
  The two float words whose values the proof needs: the word of +∞ the precondition compares against, and the word of
  2.0 that scales the inner product, which only has to be a real number for distributivity to apply.
-/
import Idealize.ShloMosaic.PureOps.Ideal

noncomputable section

namespace Rbf.Words

open Idealize.ShloMosaic

/-- The word `0x7F800000` denotes +∞. -/
theorem inf_word : Ideal.ofBits .f32 0x7F800000#32 = ⊤ := by
  simp [Ideal.ofBits, Ideal.ieee]

/-- The word `0x40000000` denotes the real number 2. -/
theorem two_word : Ideal.ofBits .f32 0x40000000#32 = ((2 : ℝ) : EReal) := by
  simp [Ideal.ofBits, Ideal.ieee, -EReal.coe_mul]; norm_num

end Rbf.Words

end
-- ==== Proof.Blocks.lean ====
/-
  From the kernel's blocks to its result array.

  Grid point `t` of 32 works on data rows `2048·t … 2048·t + 2047`: its data window is block `t` of `x`, its output
  window block `t` of the result, and every other operand's window is the whole prepared array at every point.  Chunk
  `b` of the body loads rows `256·b … 256·b + 255` of the folded centers, the same entries of the negated widths and of
  the offsets, and the same columns of the weights.  So entry `(p, q)` of what point `t` writes back is the sum, chunk
  by chunk, of the features of data row `n = 2048·t + p` at the centers `K = 256·b + k` times `W (q, K)`, plus `b_q`:
  with the exponent identity (the entries being real numbers) and the four chunks put back into one sum, that is the
  specification at `(n, q)`.  The 32 blocks tile the result array, so the array ends holding the specification.
-/
import proofs.«148921_j45226005627083_2_alg».proof.Proof.Gen.KernelIdeal.Value
import proofs.«148921_j45226005627083_2_alg».proof.Proof.Body
import proofs.«148921_j45226005627083_2_alg».proof.Proof.Prepared
import proofs.«148921_j45226005627083_2_alg».proof.Proof.Spec
import proofs.«148921_j45226005627083_2_alg».proof.Proof.Exponent
import proofs.«148921_j45226005627083_2_alg».proof.Proof.Words

set_option maxRecDepth 16384

noncomputable section

namespace Cert.KernelIdeal.RbfValue

open Cert.KernelIdeal Cert.KernelIdeal.Gen Idealize.ShloMosaic Idealize.ShloMosaic.TcCoe Idealize.SL.Sem
  Idealize.ShloMosaic.ValueIdx
open Idealize.ShloMosaic.Pipeline (Dat)

/-! ## One entry, over plain arrays -/

section Entry

variable (X : FVec Ideal S65536x256 .f32) (C : FVec Ideal S1024x256 .f32) (Sg : FVec Ideal S1024 .f32)
  (W : FVec Ideal S128x1024 .f32) (B : FVec Ideal S128 .f32)
  (hX : ∀ i, ∃ r : ℝ, X i = r) (hC : ∀ i, ∃ r : ℝ, C i = r) (hS : ∀ i, ∃ r : ℝ, Sg i = r)

include hX hC hS in
/-- One feature times its weight: the kernel's exponent, over the prepared operands, is the specification's. -/
theorem feature_eq (x0 : FVec Ideal S2048x256 .f32) (p : Fin 2048) (n : Fin 65536)
    (h0 : ∀ d : Fin 256, x0 (ix2 p d) = X (ix2 n d)) (K : Fin 1024) (q : Fin 128) :
    Ideal.exp ((∑ d : Fin 256, x0 (ix2 p d) * Prepared.foldedCenters Sg C (ix2 K d)
        + (∑ d : Fin 256, x0 (ix2 p d) * x0 (ix2 p d)) * Prepared.negWidths Sg (ix1 K)) + Prepared.offsets Sg C (ix1 K))
        * Prepared.weights W (ix2 q K)
      = Ideal.exp (Rbf.exponent X C Sg n K) * W (ix2 q K) := by
  simp only [h0, Prepared.foldedCenters_apply, Prepared.negWidths_apply, Prepared.offsets_apply, Prepared.weights_apply]
  unfold Rbf.exponent Rbf.sqNorm Rbf.inner
  have e := RbfAlgebra.exponent_ereal Rbf.two (Sg (ix1 K)) (fun d => X (ix2 n d)) (fun d => C (ix2 K d))
    ⟨2, Rbf.Words.two_word⟩ (hS _) (fun d => hX _) (fun d => hC _)
  rw [e]

include hX hC hS in
/-- Chunk `b`: its sum over the chunk's 256 centers is the specification's terms at the centers `256·b + k`. -/
theorem chunk_eq (x0 : FVec Ideal S2048x256 .f32) (p : Fin 2048) (n : Fin 65536)
    (h0 : ∀ d : Fin 256, x0 (ix2 p d) = X (ix2 n d)) (q : Fin 128) (b : ℕ) (hb : b < 4)
    (c2 : FVec Ideal S256x256 .bf16) (ns w0 : FVec Ideal S256 .f32) (w : FVec Ideal S128x256 .bf16)
    (hc2 : ∀ k d : Fin 256, c2 (ix2 k d) = Prepared.foldedCenters Sg C (ix2 (⟨b * 256 + k.val, by have := k.isLt; omega⟩ : Fin 1024) d))
    (hns : ∀ k : Fin 256, ns (ix1 k) = Prepared.negWidths Sg (ix1 (⟨b * 256 + k.val, by have := k.isLt; omega⟩ : Fin 1024)))
    (hw0 : ∀ k : Fin 256, w0 (ix1 k) = Prepared.offsets Sg C (ix1 (⟨b * 256 + k.val, by have := k.isLt; omega⟩ : Fin 1024)))
    (hw : ∀ (q' : Fin 128) (k : Fin 256), w (ix2 q' k) = Prepared.weights W (ix2 q' (⟨b * 256 + k.val, by have := k.isLt; omega⟩ : Fin 1024))) :
    Body.chunkSum x0 c2 ns w0 w p q
      = ∑ k : Fin 256, (fun K : Fin 1024 => Ideal.exp (Rbf.exponent X C Sg n K) * W (ix2 q K)) (⟨b * 256 + k.val, by have := k.isLt; omega⟩ : Fin 1024) := by
  unfold Body.chunkSum
  refine Finset.sum_congr rfl fun k _ => ?_
  rw [hw, hns, hw0]
  simp only [hc2]
  exact feature_eq X C Sg W hX hC hS x0 p n h0 _ q

include hX hC hS in
/-- The stored block at `(p, q)`, its data block holding row `n` of `x` at row `p` and its other operands the prepared
    arrays loaded chunk by chunk, is the specification at `(n, q)`. -/
theorem entry_eq (x0 : FVec Ideal S2048x256 .f32) (p : Fin 2048) (q : Fin 128) (n : Fin 65536)
    (h0 : ∀ d : Fin 256, x0 (ix2 p d) = X (ix2 n d)) :
    k0_pay1 (F := Ideal) (k0_pay9 (k0_pay2 x0) (k0_pay3 x0)
        (k0_pay4 x0 (View.ld (Prepared.foldedCenters Sg C) r0_1) (View.ld (Prepared.negWidths Sg) r0_2) (View.ld (Prepared.offsets Sg C) r0_2) (View.ld (Prepared.weights W) r0_3))
        (k0_pay5 (View.ld (Prepared.offsets Sg C) r0_5)) (k0_pay6 (View.ld (Prepared.weights W) r0_6))
        (k0_pay7 x0 (View.ld (Prepared.foldedCenters Sg C) r0_4)) (k0_pay8 x0 (View.ld (Prepared.negWidths Sg) r0_5))
        (View.ld (Prepared.foldedCenters Sg C) r0_7) (View.ld (Prepared.negWidths Sg) r0_8) (View.ld (Prepared.offsets Sg C) r0_8) (View.ld (Prepared.weights W) r0_9))
        (k0_pay10 (View.ld (Prepared.weights W) r0_12))
        (k0_pay11 (k0_pay2 x0) (k0_pay3 x0) (View.ld (Prepared.foldedCenters Sg C) r0_10) (View.ld (Prepared.negWidths Sg) r0_11))
        (k0_pay12 (View.ld (Prepared.offsets Sg C) r0_11)) B (ix2 p q)
      = Rbf.out X C Sg W B (ix2 n q) := by
  refine (Body.stored_apply x0 _ _ _ _ _ _ _ _ _ _ _ _ _ _ _ _ B p q).trans ?_
  unfold Rbf.out
  show _ = (∑ k : Fin 1024, (fun K : Fin 1024 => Ideal.exp (Rbf.exponent X C Sg n K) * W (ix2 q K)) k) + B (ix1 q)
  rw [RbfAlgebra.sum_four_chunks]
  refine congrArg (· + B (ix1 q)) ?_
  refine congrArg₂ (· + ·) (congrArg₂ (· + ·) (congrArg₂ (· + ·) ?_ ?_) ?_) ?_
  · exact
    chunk_eq X C Sg W hX hC hS x0 p n h0 q 0 (by omega) _ _ _ _
      (fun k d => congrArg (Prepared.foldedCenters Sg C) (funext fun a => Fin.ext (by
        match a with
        | ⟨0, _⟩ => show 0 + 1 * k.val = 0 * 256 + k.val; omega
        | ⟨1, _⟩ => show 0 + 1 * d.val = d.val; omega)))
      (fun k => congrArg (Prepared.negWidths Sg) (funext fun a => Fin.ext (by
        match a with
        | ⟨0, _⟩ => show 0 + 1 * k.val = 0 * 256 + k.val; omega)))
      (fun k => congrArg (Prepared.offsets Sg C) (funext fun a => Fin.ext (by
        match a with
        | ⟨0, _⟩ => show 0 + 1 * k.val = 0 * 256 + k.val; omega)))
      (fun q' k => congrArg (Prepared.weights W) (funext fun a => Fin.ext (by
        match a with
        | ⟨0, _⟩ => show 0 + 1 * q'.val = q'.val; omega
        | ⟨1, _⟩ => show 0 + 1 * k.val = 0 * 256 + k.val; omega)))
  · exact
    chunk_eq X C Sg W hX hC hS x0 p n h0 q 1 (by omega) _ _ _ _
      (fun k d => congrArg (Prepared.foldedCenters Sg C) (funext fun a => Fin.ext (by
        match a with
        | ⟨0, _⟩ => show 256 + 1 * k.val = 1 * 256 + k.val; omega
        | ⟨1, _⟩ => show 0 + 1 * d.val = d.val; omega)))
      (fun k => congrArg (Prepared.negWidths Sg) (funext fun a => Fin.ext (by
        match a with
        | ⟨0, _⟩ => show 256 + 1 * k.val = 1 * 256 + k.val; omega)))
      (fun k => congrArg (Prepared.offsets Sg C) (funext fun a => Fin.ext (by
        match a with
        | ⟨0, _⟩ => show 256 + 1 * k.val = 1 * 256 + k.val; omega)))
      (fun q' k => congrArg (Prepared.weights W) (funext fun a => Fin.ext (by
        match a with
        | ⟨0, _⟩ => show 0 + 1 * q'.val = q'.val; omega
        | ⟨1, _⟩ => show 256 + 1 * k.val = 1 * 256 + k.val; omega)))
  · exact
    chunk_eq X C Sg W hX hC hS x0 p n h0 q 2 (by omega) _ _ _ _
      (fun k d => congrArg (Prepared.foldedCenters Sg C) (funext fun a => Fin.ext (by
        match a with
        | ⟨0, _⟩ => show 512 + 1 * k.val = 2 * 256 + k.val; omega
        | ⟨1, _⟩ => show 0 + 1 * d.val = d.val; omega)))
      (fun k => congrArg (Prepared.negWidths Sg) (funext fun a => Fin.ext (by
        match a with
        | ⟨0, _⟩ => show 512 + 1 * k.val = 2 * 256 + k.val; omega)))
      (fun k => congrArg (Prepared.offsets Sg C) (funext fun a => Fin.ext (by
        match a with
        | ⟨0, _⟩ => show 512 + 1 * k.val = 2 * 256 + k.val; omega)))
      (fun q' k => congrArg (Prepared.weights W) (funext fun a => Fin.ext (by
        match a with
        | ⟨0, _⟩ => show 0 + 1 * q'.val = q'.val; omega
        | ⟨1, _⟩ => show 512 + 1 * k.val = 2 * 256 + k.val; omega)))
  · exact
    chunk_eq X C Sg W hX hC hS x0 p n h0 q 3 (by omega) _ _ _ _
      (fun k d => congrArg (Prepared.foldedCenters Sg C) (funext fun a => Fin.ext (by
        match a with
        | ⟨0, _⟩ => show 768 + 1 * k.val = 3 * 256 + k.val; omega
        | ⟨1, _⟩ => show 0 + 1 * d.val = d.val; omega)))
      (fun k => congrArg (Prepared.negWidths Sg) (funext fun a => Fin.ext (by
        match a with
        | ⟨0, _⟩ => show 768 + 1 * k.val = 3 * 256 + k.val; omega)))
      (fun k => congrArg (Prepared.offsets Sg C) (funext fun a => Fin.ext (by
        match a with
        | ⟨0, _⟩ => show 768 + 1 * k.val = 3 * 256 + k.val; omega)))
      (fun q' k => congrArg (Prepared.weights W) (funext fun a => Fin.ext (by
        match a with
        | ⟨0, _⟩ => show 0 + 1 * q'.val = q'.val; omega
        | ⟨1, _⟩ => show 768 + 1 * k.val = 3 * 256 + k.val; omega)))

end Entry

/-! ## The windows over the grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 32 grid points: the data window and the output window sit at block `t`
    along the rows, and every other window at block zero. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

variable (m : (ℓ : Loc nD τ sig) → Buf (Elt Ideal) ℓ)

/-- The folded centers' window is the whole array at every point. -/
theorem whole1 (c : Dev nD) (t : Fin cfg0.N) : (iblk m c 1 t : FVec Ideal S1024x256 .bf16) = V m c main_v7 := by
  obtain ⟨-, -, -, -, e0, e1, -⟩ := idx_facts t
  funext y
  show V m c main_v7 (((cfg0.win 1).blk t).view.emb y) = V m c main_v7 y
  refine congrArg (V m c main_v7) (funext fun a => Fin.ext ?_)
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- The negated widths' window is the whole array at every point. -/
theorem whole2 (c : Dev nD) (t : Fin cfg0.N) : (iblk m c 2 t : FVec Ideal S1024 .f32) = V m c main_v8 := by
  obtain ⟨-, -, -, -, -, -, e0, -⟩ := idx_facts t
  funext y
  show V m c main_v8 (((cfg0.win 2).blk t).view.emb y) = V m c main_v8 y
  refine congrArg (V m c main_v8) (funext fun a => Fin.ext ?_)
  match a with
  | ⟨0, _⟩ => show win0_2.index t (0 : Fin 1) * 1024 + 1 * (y 0).val = (y 0).val; omega

/-- The offsets' window is the whole array at every point. -/
theorem whole3 (c : Dev nD) (t : Fin cfg0.N) : (iblk m c 3 t : FVec Ideal S1024 .f32) = V m c main_v10 := by
  obtain ⟨-, -, -, -, -, -, -, e0, -⟩ := idx_facts t
  funext y
  show V m c main_v10 (((cfg0.win 3).blk t).view.emb y) = V m c main_v10 y
  refine congrArg (V m c main_v10) (funext fun a => Fin.ext ?_)
  match a with
  | ⟨0, _⟩ => show win0_3.index t (0 : Fin 1) * 1024 + 1 * (y 0).val = (y 0).val; omega

/-- The weights' window is the whole array at every point. -/
theorem whole4 (c : Dev nD) (t : Fin cfg0.N) : (iblk m c 4 t : FVec Ideal S128x1024 .bf16) = V m c main_v11 := by
  obtain ⟨-, -, -, -, -, -, -, -, e0, e1, -⟩ := idx_facts t
  funext y
  show V m c main_v11 (((cfg0.win 4).blk t).view.emb y) = V m c main_v11 y
  refine congrArg (V m c main_v11) (funext fun a => Fin.ext ?_)
  match a with
  | ⟨0, _⟩ => show win0_4.index t (0 : Fin 2) * 128 + 1 * (y 0).val = (y 0).val; omega
  | ⟨1, _⟩ => show win0_4.index t (1 : Fin 2) * 1024 + 1 * (y 1).val = (y 1).val; omega

/-- The bias' window is the whole array at every point. -/
theorem whole5 (c : Dev nD) (t : Fin cfg0.N) : (iblk m c 5 t : FVec Ideal S128 .f32) = V m c main_arg4 := by
  obtain ⟨-, -, -, -, -, -, -, -, -, -, e0⟩ := idx_facts t
  funext y
  show V m c main_arg4 (((cfg0.win 5).blk t).view.emb y) = V m c main_arg4 y
  refine congrArg (V m c main_arg4) (funext fun a => Fin.ext ?_)
  match a with
  | ⟨0, _⟩ => show win0_5.index t (0 : Fin 1) * 128 + 1 * (y 0).val = (y 0).val; omega

/-! ## What a point writes back, the cover, the array -/

/-- The argument arrays on core `c`, as the memory the program is launched from holds them. -/
abbrev argX (c : Dev nD) : FVec Ideal S65536x256 .f32 := m ((c : Thread nD τ).loc main_arg0)
abbrev argC (c : Dev nD) : FVec Ideal S1024x256 .f32 := m ((c : Thread nD τ).loc main_arg1)
abbrev argS (c : Dev nD) : FVec Ideal S1024 .f32 := m ((c : Thread nD τ).loc main_arg2)
abbrev argW (c : Dev nD) : FVec Ideal S128x1024 .f32 := m ((c : Thread nD τ).loc main_arg3)
abbrev argB (c : Dev nD) : FVec Ideal S128 .f32 := m ((c : Thread nD τ).loc main_arg4)

/-- The data, the centers and the widths hold real numbers on every core. -/
def RealInputs : Prop := ∀ c : Dev nD, (∀ i, ∃ r : ℝ, argX m c i = r) ∧ (∀ i, ∃ r : ℝ, argC m c i = r) ∧ (∀ i, ∃ r : ℝ, argS m c i = r)

/-- What point `t` writes back is block `t` of the specification of the argument arrays. -/
theorem flushed_eq (hfin : RealInputs m) (c : Dev nD) (t : Fin cfg0.N) :
    (dats m 0 c).flushed 6 t
      = ((cfg0.win 6).blk t).view.read (Elt Ideal) (Rbf.out (argX m c) (argC m c) (argS m c) (argW m c) (argB m c)) := by
  obtain ⟨hX, hC, hS⟩ := hfin c
  obtain ⟨e00, e01, e60, e61, -⟩ := idx_facts t
  have hN : cfg0.N = 32 := N_0
  have ht := t.isLt
  rw [Value.flushed6]
  unfold out0_6
  rw [View.canon_unit_zero hz2]
  simp only [View.ld_unit_zero (S := S2048x256) hz2, View.ld_unit_zero (S := S128) hz1]
  rw [whole1 m c t, whole2 m c t, whole3 m c t, whole4 m c t, whole5 m c t, Prepared.V_main_v7, Prepared.V_main_v8,
    Prepared.V_main_v10, Prepared.V_main_v11, V_main_arg4]
  funext y
  obtain ⟨p, q, rfl⟩ : ∃ (p : Fin 2048) (q : Fin 128), y = ix2 p q := ⟨y 0, y 1, eq_ix2 y⟩
  have hp := p.isLt
  refine (entry_eq (argX m c) (argC m c) (argS m c) (argW m c) (argB m c) hX hC hS (iblk m c 0 t) p q
    ⟨t.val * 2048 + p.val, by omega⟩ (fun d => ?_)).trans ?_
  · show V m c main_arg0 (((cfg0.win 0).blk t).view.emb (ix2 p d)) = _
    rw [V_main_arg0]
    refine congrArg (argX m c) (funext fun a => Fin.ext ?_)
    match a with
    | ⟨0, _⟩ => show win0_0.index t (0 : Fin 2) * 2048 + 1 * p.val = t.val * 2048 + p.val; omega
    | ⟨1, _⟩ => show win0_0.index t (1 : Fin 2) * 256 + 1 * d.val = d.val; omega
  · show _ = Rbf.out (argX m c) (argC m c) (argS m c) (argW m c) (argB m c) (((cfg0.win 6).blk t).view.emb (ix2 p q))
    refine congrArg (Rbf.out (argX m c) (argC m c) (argS m c) (argW m c) (argB m c)) (funext fun a => Fin.ext ?_)
    match a with
    | ⟨0, _⟩ => show t.val * 2048 + p.val = win0_6.index t (0 : Fin 2) * 2048 + 1 * p.val; omega
    | ⟨1, _⟩ => show q.val = win0_6.index t (1 : Fin 2) * 128 + 1 * q.val; omega

/-- An index of the result array is in point `t`'s block iff each coordinate is in the block's range on its axis. -/
theorem mem_blk (t : Fin cfg0.N) (i : S65536x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v12).slice (win0_6.rect t)).set ↔ _
  rw [View.set_slice_whole, Rect.mem_set_unit]
  exact Iff.rfl

/-- Every row of the result lies in the block of the point `row / 2048`. -/
theorem cover (i : S65536x128.Idx) : ∃ t : Fin cfg0.N, (cfg0.win 6).flush t = true ∧ i ∈ ((cfg0.win 6).blk t).view.set := by
  have hN : cfg0.N = 32 := N_0
  have hi0 : (i 0).val < 65536 := (i 0).isLt
  have hi1 : (i 1).val < 128 := (i 1).isLt
  refine ⟨⟨(i 0).val / 2048, by omega⟩, flush0_6 _, ?_⟩
  obtain ⟨-, -, e60, e61, -⟩ := idx_facts ⟨(i 0).val / 2048, by omega⟩
  rw [mem_blk]
  intro a
  match a with
  | ⟨0, _⟩ =>
    show win0_6.index _ (0 : Fin 2) * 2048 ≤ (i 0).val ∧ (i 0).val < win0_6.index _ (0 : Fin 2) * 2048 + 2048
    rw [e60]; show (i 0).val / 2048 * 2048 ≤ (i 0).val ∧ (i 0).val < (i 0).val / 2048 * 2048 + 2048; omega
  | ⟨1, _⟩ =>
    show win0_6.index _ (1 : Fin 2) * 128 ≤ (i 1).val ∧ (i 1).val < win0_6.index _ (1 : Fin 2) * 128 + 128
    rw [e61]; omega

/-- The result array after the run is the specification of the argument arrays. -/
theorem final (hfin : RealInputs m) (c : Dev nD) :
    (dats m 0 c).arrAt 6 cfg0.N = Rbf.out (argX m c) (argC m c) (argS m c) (argW m c) (argB m c) :=
  (dats m 0 c).arrAt_eq_of_cover 6 (Rbf.out (argX m c) (argC m c) (argS m c) (argW m c) (argB m c))
    (fun t _ => flushed_eq m hfin c t) cover

/-- The kernel's run: it ends with the result array at the specification of the argument arrays, these unchanged. -/
theorem run (ρ : Dev nD → PrngReg) (hfin : RealInputs m) :
    θ_run defs (onTc (τ := τ) (main (F := Ideal))) ⟨m, fun _ => 0, ρ⟩ fun r => ∀ c : Dev nD,
      r.2.mem ((c : Thread nD τ).loc main_v12) = Rbf.out (argX m c) (argC m c) (argS m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m hfin c), (h c).2⟩) (Value.run_blocks m ρ)

end Cert.KernelIdeal.RbfValue

end
-- ==== Proof.ReferenceValue.lean ====
/-
  The reference computes the specification.

  Read one operation at a time, the reference's result at `(n, o)` is the sum over the 1024 centers of the exponential of
  `(-σ_k) · ((0 + Σ_d x²) + (0 + Σ_d c²) - 2 · Σ_d x·c)` times `W (o, k)` (the weights transposed and contracted along
  their first axis), plus `b_o` broadcast along the rows.  The two zeros are the float zero word, the additive unit.
-/
import proofs.«148921_j45226005627083_2_alg».proof.Proof.Gen.ReferenceIdeal.Read
import proofs.«148921_j45226005627083_2_alg».proof.Proof.Spec

noncomputable section

namespace Cert.ReferenceIdeal.RefValue

open Cert.ReferenceIdeal Cert.ReferenceIdeal.Read Idealize.ShloMosaic Idealize.ShloMosaic.ValueIdx

/-- The exponent stage at `(n, k)` is the specification's exponent. -/
theorem exponent_stage (x0 : S65536x256.Idx → EReal) (x1 : S1024x256.Idx → EReal) (x2 : S1024.Idx → EReal)
    (n : Fin 65536) (k : Fin 1024) :
    val_main_v16 (F := Ideal) x0 x1 x2 (ix2 n k) = Rbf.exponent x0 x1 x2 n k := by
  have e1 : ∀ d : Fin 256, idx_main_v1 (idx_main_v5 (idx_main_v7 (ix2 n k))) d = ix2 n d := fun d =>
    funext fun a => Fin.ext (by match a with | ⟨0, _⟩ => rfl | ⟨1, _⟩ => rfl)
  have e3 : ∀ d : Fin 256, idx_main_v3 (idx_main_v6 (idx_main_v8 (ix2 n k))) d = ix2 k d := fun d =>
    funext fun a => Fin.ext (by match a with | ⟨0, _⟩ => rfl | ⟨1, _⟩ => rfl)
  have el : ∀ d : Fin 256, lidx_main_v4 (ix2 n k) d = ix2 n d := fun d =>
    funext fun a => Fin.ext (by match a with | ⟨0, _⟩ => rfl | ⟨1, _⟩ => rfl)
  have er : ∀ d : Fin 256, ridx_main_v4 (ix2 n k) d = ix2 k d := fun d =>
    funext fun a => Fin.ext (by match a with | ⟨0, _⟩ => rfl | ⟨1, _⟩ => rfl)
  have es : idx_main_v13 (idx_main_v15 (ix2 n k)) = ix1 k :=
    funext fun a => Fin.ext (by match a with | ⟨0, _⟩ => rfl)
  rw [val_main_v16_apply, val_main_v15_apply, val_main_v14_apply, val_main_v13_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply]
  simp only [val_main_v0_apply, val_main_v2_apply, val_main_cst_apply, val_main_cst_0_apply, e1, e3, el, er, es,
    Ideal.mulf_def, Ideal.addf_def, Ideal.subf_def, Ideal.hostNegf_def, Ideal.negf_def, Ideal.ofBits_def,
    Ideal.ofBits_zero_f32, zero_add]
  rfl

/-- The reference's result, as the operations' composed term, is the specification of the argument arrays. -/
theorem result_eq (x0 : S65536x256.Idx → EReal) (x1 : S1024x256.Idx → EReal) (x2 : S1024.Idx → EReal)
    (x3 : S128x1024.Idx → EReal) (x4 : S128.Idx → EReal) :
    val_main_v22 (F := Ideal) x0 x1 x2 x3 x4 = Rbf.out x0 x1 x2 x3 x4 := by
  funext i
  obtain ⟨n, o, rfl⟩ : ∃ (n : Fin 65536) (o : Fin 128), i = ix2 n o := ⟨i 0, i 1, eq_ix2 i⟩
  have el : ∀ k : Fin 1024, lidx_main_v19 (ix2 n o) k = ix2 n k := fun k =>
    funext fun a => Fin.ext (by match a with | ⟨0, _⟩ => rfl | ⟨1, _⟩ => rfl)
  have er : ∀ k : Fin 1024, idx_main_v18 (ridx_main_v19 (ix2 n o) k) = ix2 o k := fun k =>
    funext fun a => Fin.ext (by match a with | ⟨0, _⟩ => rfl | ⟨1, _⟩ => rfl)
  have eb : idx_main_v20 (idx_main_v21 (ix2 n o)) = ix1 o :=
    funext fun a => Fin.ext (by match a with | ⟨0, _⟩ => rfl)
  rw [val_main_v22_apply, val_main_v19_apply, val_main_v21_apply, val_main_v20_apply, eb]
  simp only [val_main_v17_apply, val_main_v18_apply, el, er, exponent_stage, Ideal.hostUnary_exp_def, Ideal.addf_def]
  rfl

end Cert.ReferenceIdeal.RefValue

end
-- ==== Proof.Finite.lean ====
/-
  The precondition makes every entry of the data, the centers and the widths a real number.

  The precondition compares the absolute value of every entry of every argument with the float word of +∞ and asks that
  all comparisons hold.  On the extended reals the absolute value of `x` is `max x (-x)`, and it lies strictly below
  +∞ exactly when `x` is neither infinity, that is, when `x` is a real number.
-/
import proofs.«148921_j45226005627083_2_alg».proof.Pre_finite_inputs
import Idealize.ShloMosaic.PureOps.Ideal
import proofs.«148921_j45226005627083_2_alg».proof.Proof.Words
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value compares below the float word of +∞ is a real number. -/
theorem real_of_abs_lt_inf (x : EReal)
    (h : FloatOps.cmpf (F := Ideal) (φ := .f32) .olt (FloatOps.hostAbsf x) (Ideal.ofBits .f32 0x7F800000#32) = 1#1) :
    ∃ r : ℝ, x = r := by
  rw [Ideal.cmpf_def, Ideal.hostAbsf_def, Ideal.absf_def, Rbf.Words.inf_word] at h
  have hb : ∀ b : Bool, BitVec.ofBool b = 1#1 → b = true := by decide
  have h' : x < ⊤ ∧ -x < ⊤ := by simpa [Ideal.cmp] using hb _ h
  obtain ⟨h1, h2⟩ := h'
  induction x with
  | bot => simp at h2
  | coe r => exact ⟨r, rfl⟩
  | top => simp at h1

/-- Under the precondition every entry of the data, of the centers and of the widths is a real number. -/
theorem reals_of_pre [Facts] (a0 : FVec Ideal S65536x256 .f32) (a1 : FVec Ideal S1024x256 .f32) (a2 : FVec Ideal S1024 .f32)
    (a3 : FVec Ideal S128x1024 .f32) (a4 : FVec Ideal S128 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) := by
  have h0 := congrFun h ix0
  dsimp only [fn, fn_part1] at h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i)⟩

end Cert.Pre_finite_inputs.Finite

end
-- ==== Proof.lean ====
/-
  A radial-basis network: for data `x` (65536 rows of 256 coordinates), 1024 centers `c` with widths `σ`, weights `W`
  (128 × 1024) and bias `b`, the output is  `out (n, o) = Σ_k exp(-σ_k · ‖x_n - c_k‖²) · W (o, k) + b_o`.

  The reference expands the squared distance as `‖x_n‖² + ‖c_k‖² - 2 · ⟨x_n, c_k⟩` and multiplies by `-σ_k`.  The kernel
  folds the width into its operands beforehand — `c2 = (2σ) · c`, `ns = -σ`, `w0 = -σ · ‖c‖²` — so that its exponent is
  `⟨x_n, c2_k⟩ + ‖x_n‖² · ns_k + w0_k`; it works on blocks of 2048 rows and takes the centers in four chunks of 256,
  adding the chunks' products with the weights one after the other.  On the extended reals a change of float format is
  the identity and sums may be regrouped freely; the two exponents agree by distributivity, which needs the data, the
  centers and the widths to be real numbers: that is what the precondition provides (Finite.lean).

  The modules: Exponent.lean (the algebra), Spec.lean (the function both programs compute), ReferenceValue.lean (the
  reference computes it), Prepared.lean (the kernel program's prepared operands at an index), Body.lean (the body's
  block at an entry), Blocks.lean (from the 32 blocks to the result array, and the kernel's run).  The kernel's frame,
  at both instances, and the reference's run are the generated modules'; the idealization rewrote nothing.
-/
import proofs.«148921_j45226005627083_2_alg».proof.Defs
import proofs.«148921_j45226005627083_2_alg».proof.Proof.Gen.Kernel
import proofs.«148921_j45226005627083_2_alg».proof.Proof.Gen.Kernel.Frame
import proofs.«148921_j45226005627083_2_alg».proof.Proof.Gen.KernelIdeal
import proofs.«148921_j45226005627083_2_alg».proof.Proof.Gen.KernelIdeal.Frame
import proofs.«148921_j45226005627083_2_alg».proof.Proof.Gen.KernelIdeal.Value
import proofs.«148921_j45226005627083_2_alg».proof.Proof.Gen.ReferenceIdeal
import proofs.«148921_j45226005627083_2_alg».proof.Proof.Gen.ReferenceIdeal.Run
import proofs.«148921_j45226005627083_2_alg».proof.Proof.Gen.ReferenceIdeal.Read
import proofs.«148921_j45226005627083_2_alg».proof.Proof.Gen.Pre_finite_inputs
import proofs.«148921_j45226005627083_2_alg».proof.Proof.Blocks
import proofs.«148921_j45226005627083_2_alg».proof.Proof.ReferenceValue
import proofs.«148921_j45226005627083_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the data, the centers and the widths hold real numbers on every core. -/
theorem real_inputs (m : (ℓ : Loc Cert.KernelIdeal.nD Cert.KernelIdeal.τ Cert.KernelIdeal.sig) → Buf (Elt Ideal) ℓ)
    (h : Cert.Pre_KernelIdeal m) : Cert.KernelIdeal.RbfValue.RealInputs m := fun c =>
  Cert.Pre_finite_inputs.Finite.reals_of_pre _ _ _ _ _ (h c)

/-- Both programs end with the specification of the argument arrays in their result: the kernel by its run read block
    by block, the reference by its run read operation by operation; the memories agree on the arguments. -/
theorem algebraic : Cert.algebraic_KernelIdeal_ReferenceIdeal := by
  intro m ρ m' ρ' hpre hagree
  refine ⟨_, Cert.KernelIdeal.RbfValue.run m ρ (real_inputs m hpre), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v22_eq, Cert.ReferenceIdeal.RefValue.result_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
